-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S16384x1024 .f32) (main_arg2 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S128x128 : Shape := ⟨2, ![128, 128]⟩
abbrev S8x128 : Shape := ⟨2, ![8, 128]⟩
abbrev S1024 : Shape := ⟨1, ![1024]⟩
abbrev S16384 : Shape := ⟨1, ![16384]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .bf16⟩
  | .hbm, ⟨4, _⟩ => ⟨S128x128, .f32⟩
  | .hbm, ⟨5, _⟩ => ⟨S16384, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S8x128, .f32⟩
  | .local _ .vmem, ⟨6, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S128x128_S16384 : S128x128.ShapeCasts S16384
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Mahalanobis.lean ====
/-
  The squared Mahalanobis distance of one row, as both programs compute it.

  For a row's difference vector `d` (an entry of `x` minus the same entry of `x_fit`, 1024 of them) and the
  1024 × 1024 matrix `s`, the row's value is `d · s · dᵀ`, taken in this order: first the row times the matrix,
  `t j = ∑ k, d k * s k j`, then the inner product of `t` with the row again, `∑ j, t j * d j`.  Both programs
  sum in exactly this order — the contraction over `k` inside, the sum over `j` outside — so the two results are
  the same expression over the extended reals, and no law that could fail at an infinity (distributivity, moving a
  factor across a sum) is needed: whatever the entries are, finite or not, the values agree.
-/
import Idealize.ShloMosaic.PureOps.Ideal
import Idealize.ShloMosaic.Lib.ValueIdx

noncomputable section

namespace Cert.Mahalanobis

open Idealize.ShloMosaic Idealize.ShloMosaic.ValueIdx

/-- `d · s · dᵀ`: the row `d` times the matrix `s`, then the inner product with `d`. -/
def form (d : Fin 1024 → EReal) (s : Fin 1024 → Fin 1024 → EReal) : EReal :=
  ∑ j : Fin 1024, (∑ k : Fin 1024, d k * s k j) * d j

/-- The form of row `r` of two arrays of `R` rows: the row's difference `x r − y r` against the matrix `s`. -/
def rowForm {R : Nat} (x y : (⟨2, ![R, 1024]⟩ : Shape).Idx → EReal) (s : (⟨2, ![1024, 1024]⟩ : Shape).Idx → EReal)
    (r : Fin R) : EReal :=
  form (fun k => x (ix2 r k) - y (ix2 r k)) (fun k j => s (ix2 k j))

end Cert.Mahalanobis

end
-- ==== Proof.RefValue.lean ====
/-
  The reference's result, index by index, is the row form.

  The reference subtracts, multiplies the difference by the matrix (`dot_general`, contracting the difference's
  columns against the matrix's rows), multiplies the product by the difference again entry by entry and sums each
  row from the initial value zero.  Read at a row `r` this is `0 + ∑ j, (∑ k, δ (r, k) * s (k, j)) * δ (r, j)`
  with `δ = x − x_fit`: the row form of `r`, the zero dropped.
-/
import proofs.«173217_j34187939676803_2_alg».proof.Proof.Gen.ReferenceIdeal.Read
import proofs.«173217_j34187939676803_2_alg».proof.Proof.Mahalanobis

noncomputable section

namespace Cert.ReferenceIdeal.RefValue

open Cert.ReferenceIdeal Cert.ReferenceIdeal.Gen Cert.ReferenceIdeal.Read
open Idealize.ShloMosaic Idealize.ShloMosaic.ValueIdx Cert.Mahalanobis

/-- The reference's stage for its result is, at row `i`, the row form of the two arrays against the matrix. -/
theorem result_eq (x0 x1 : (⟨S16384x1024, .f32⟩ : BufTy).Contents (Elt Ideal))
    (x2 : (⟨S1024x1024, .f32⟩ : BufTy).Contents (Elt Ideal)) :
    val_main_v3 (F := Ideal) x0 x1 x2 = fun i => rowForm x0 x1 x2 ⟨(i 0).val, (i 0).isLt⟩ := by
  funext i
  rw [val_main_v3_apply, val_main_cst_apply]
  show Ideal.ofBits .f32 0x00000000#32 + _ = _
  rw [Ideal.ofBits_zero_f32, zero_add]
  unfold rowForm form
  refine Finset.sum_congr rfl fun j _ => ?_
  -- the index of the summed array at column `j` of row `i`, and the two operand indices of the product there
  have hI : idx_main_v3 i j = ix2 (⟨(i 0).val, (i 0).isLt⟩ : Fin 16384) j :=
    funext fun a => Fin.ext (by match a with | ⟨0, _⟩ => rfl | ⟨1, _⟩ => rfl)
  have hL : ∀ k : Fin 1024, lidx_main_v1 (ix2 (⟨(i 0).val, (i 0).isLt⟩ : Fin 16384) j) k
      = ix2 (⟨(i 0).val, (i 0).isLt⟩ : Fin 16384) k :=
    fun k => funext fun a => Fin.ext (by match a with | ⟨0, _⟩ => rfl | ⟨1, _⟩ => rfl)
  have hR : ∀ k : Fin 1024, ridx_main_v1 (ix2 (⟨(i 0).val, (i 0).isLt⟩ : Fin 16384) j) k = ix2 k j :=
    fun k => funext fun a => Fin.ext (by match a with | ⟨0, _⟩ => rfl | ⟨1, _⟩ => rfl)
  rw [hI, val_main_v2_apply, val_main_v1_apply]
  simp only [val_main_v0_apply, hL, hR]
  rfl

end Cert.ReferenceIdeal.RefValue

end
-- ==== Proof.BodyValue.lean ====
/-
  What the kernel body stores, read at an entry of its 8 × 128 tile.

  At a grid point the body holds a 1024-row block of `x`, the same block of `x_fit` and the whole matrix.  It
  forms the difference `δ`, multiplies it by the matrix into a zero accumulator (a change of float format is the
  identity on the extended reals), multiplies the product by `δ` entry by entry, sums every row, and lays the
  1024 row sums out as an 8 × 128 tile in row-major order: entry (p, q) of the tile is the sum of row
  `128 * p + q` of the block.  So the entry is the row form of that row.
-/
import proofs.«173217_j34187939676803_2_alg».proof.Proof.Gen.KernelIdeal.Skeleton
import proofs.«173217_j34187939676803_2_alg».proof.Proof.Mahalanobis
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen
open Idealize.ShloMosaic Idealize.ShloMosaic.ValueIdx Cert.Mahalanobis

/-- The block row whose sum lands at entry (p, q) of the tile: row-major, 128 to a tile row. -/
def tileRow (p : Fin 8) (q : Fin 128) : Fin 1024 := ⟨128 * p.val + q.val, by omega⟩

/-- The left operand's row coordinate at output (r, j) is `r`, whatever the contraction index. -/
theorem lhs_row (i : S1024x1024.Idx) (u : dot_S1024x1024_S1024x1024_S1024x1024_1_0_0_1_n_n.contr.Idx) :
    (dot_S1024x1024_S1024x1024_S1024x1024_1_0_0_1_n_n.lhsIdx i u 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The right operand's column coordinate at output (r, j) is `j`. -/
theorem rhs_col (i : S1024x1024.Idx) (u : dot_S1024x1024_S1024x1024_S1024x1024_1_0_0_1_n_n.contr.Idx) :
    (dot_S1024x1024_S1024x1024_S1024x1024_1_0_0_1_n_n.rhsIdx i u 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into the zero accumulator, at (r, j): the sum over `k` of left (r, k) times right (k, j). -/
theorem product_apply (a b : FVec Ideal S1024x1024 .bf16) (r j : Fin 1024) :
    matmul dot_S1024x1024_S1024x1024_S1024x1024_1_0_0_1_n_n none a b (constant (F := Ideal) S1024x1024 .f32 0x00000000#32) (ix2 r j)
      = ∑ k : Fin 1024, a (ix2 r k) * b (ix2 k j) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j)
      ((contrEquiv1 dot_S1024x1024_S1024x1024_S1024x1024_1_0_0_1_n_n 1024 rfl rfl).symm k) = ix2 r k :=
    funext fun a => Fin.ext (by
      match a with
      | ⟨0, _⟩ => exact lhs_row _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r j)
      ((contrEquiv1 dot_S1024x1024_S1024x1024_S1024x1024_1_0_0_1_n_n 1024 rfl rfl).symm k) = ix2 k j :=
    funext fun a => Fin.ext (by
      match a with
      | ⟨0, _⟩ => exact (dot_S1024x1024_S1024x1024_S1024x1024_1_0_0_1_n_n.rhsIdx_val_of_single rfl _ _).trans hk
      | ⟨1, _⟩ => exact rhs_col _ _)
  rw [el, er]

/-- THE TILE ENTRY: what the body stores at (p, q) is the row form of block row `128 * p + q`. -/
theorem stored_apply (v0 v1 : FVec Ideal S1024x1024 .f32) (v4 : FVec Ideal S1024x1024 .bf16) (p : Fin 8) (q : Fin 128) :
    k0_pay1 (F := Ideal) v0 v1 v4 (ix2 p q)
      = form (fun k => v0 (ix2 (tileRow p q) k) - v1 (ix2 (tileRow p q) k)) (fun k j => v4 (ix2 k j)) := by
  unfold k0_pay1
  dsimp only
  -- the tile is the vector of row sums in row-major order
  refine (shapeCast_apply _ _ (ix2 p q) (ix1 (tileRow p q)) ?_).trans ?_
  · rw [Shape.rowMajor_val_one, Shape.rowMajor_val_two]
    show 128 * p.val + q.val = p.val * 128 + q.val
    omega
  -- a row sum from the zero accumulator is the plain sum over the row
  refine (Ideal.multiReduction_add_single _ _ _ _ _ (ix1 (tileRow p q))).trans ?_
  unfold form
  refine Finset.sum_congr rfl fun (j : Fin 1024) _ => ?_
  have hl : reduces_S1024x1024_S1024.lift (ix1 (tileRow p q)) j = (ix2 (tileRow p q) j : S1024x1024.Idx) :=
    funext fun a => Fin.ext (by match a with | ⟨0, _⟩ => rfl | ⟨1, _⟩ => rfl)
  rw [hl, mulf_apply, product_apply, shapeCast_self]
  rfl

end Cert.KernelIdeal.BodyValue

end
-- ==== Proof.ArrayValue.lean ====
/-
  From the tiles the grid points write to the kernel program's result.

  The region's output is a 128 × 128 array, written in sixteen blocks of 8 rows: point `t` writes rows
  `8 t … 8 t + 7`, and what it writes is the tile of row forms of the `t`-th 1024-row block of `x` and `x_fit`
  (the matrix is the same whole block at every point).  Entry (p, q) of that tile is the form of block row
  `128 p + q`, that is of row `1024 t + 128 p + q = 128 (8 t + p) + q` of the arrays: so every point writes
  its block of ONE array, the one whose entry (a, b) is the form of row `128 a + b`, and the sixteen blocks cover it.
  The matrix the region reads is the argument matrix after a change of float format, which is the identity on the
  extended reals.  After the region the program flattens the 128 × 128 array in row-major order: entry `i` of the
  result is entry (i / 128, i % 128), the form of row `i`.
-/
import proofs.«173217_j34187939676803_2_alg».proof.Proof.Gen.KernelIdeal.Frame
import proofs.«173217_j34187939676803_2_alg».proof.Proof.BodyValue
import proofs.«173217_j34187939676803_2_alg».proof.Proof.Mahalanobis
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.KernelIdeal.BodyValue
open Idealize.ShloMosaic Idealize.ShloMosaic.TcCoe Idealize.ShloMosaic.ValueIdx Idealize.SL.Sem Cert.Mahalanobis
open Idealize.ShloMosaic.Pipeline (Dat Cfg Window)

variable (m : (ℓ : Loc nD τ sig) → Buf (Elt Ideal) ℓ) (ρ : Dev nD → PrngReg)

/-! ## The array the region writes -/

/-- Entry (a, b) of the region's output array: the form of row `128 a + b`. -/
def tiles (x y : S16384x1024.Idx → EReal) (s : S1024x1024.Idx → EReal) : S128x128.Idx → EReal :=
  fun i => rowForm x y s (⟨128 * (i 0).val + (i 1).val, by have := idx2_lt0 i; have := idx2_lt1 i; omega⟩ : Fin 16384)

theorem zero_offsets : (![0, 0] : Fin 2 → Nat) = fun _ => 0 := funext fun a => by fin_cases a <;> rfl

/-- The grid has sixteen points. -/
theorem point_lt (t : Fin cfg0.N) : t.val < 16 := lt_of_lt_of_eq t.isLt N_0

/-- Row `r` of the block point `t` reads, as a row of the arrays. -/
def blockRow (t : Fin cfg0.N) (r : Fin 1024) : Fin 16384 := ⟨1024 * t.val + r.val, by have := point_lt t; omega⟩

/-- The printed index maps, decided over the grid: the two row-blocked inputs and the output are at block `t` of
    their first axis and block 0 of the second, the matrix at its one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read where they sit in their arrays -/

theorem block_x (c : Dev nD) (t : Fin cfg0.N) (r k : Fin 1024) :
    iblk m c 0 t (ix2 r k) = V m c main_arg0 (ix2 (blockRow t r) k) := by
  show V m c main_arg0 (((cfg0.win 0).blk t).view.emb (ix2 r k)) = _
  refine congrArg (V m c main_arg0) (funext fun a => Fin.ext ?_)
  obtain ⟨e0, e1, -, -, -, -, -, -⟩ := idx_facts t
  match a with
  | ⟨0, _⟩ => show win0_0.index t (0 : Fin 2) * 1024 + 1 * r.val = 1024 * t.val + r.val; omega
  | ⟨1, _⟩ => show win0_0.index t (1 : Fin 2) * 1024 + 1 * k.val = k.val; omega

theorem block_y (c : Dev nD) (t : Fin cfg0.N) (r k : Fin 1024) :
    iblk m c 1 t (ix2 r k) = V m c main_arg1 (ix2 (blockRow t r) k) := by
  show V m c main_arg1 (((cfg0.win 1).blk t).view.emb (ix2 r k)) = _
  refine congrArg (V m c main_arg1) (funext fun a => Fin.ext ?_)
  obtain ⟨-, -, e0, e1, -, -, -, -⟩ := idx_facts t
  match a with
  | ⟨0, _⟩ => show win0_1.index t (0 : Fin 2) * 1024 + 1 * r.val = 1024 * t.val + r.val; omega
  | ⟨1, _⟩ => show win0_1.index t (1 : Fin 2) * 1024 + 1 * k.val = k.val; omega

theorem block_s (c : Dev nD) (t : Fin cfg0.N) (k j : Fin 1024) :
    iblk m c 2 t (ix2 k j) = V m c main_v0 (ix2 k j) := by
  show V m c main_v0 (((cfg0.win 2).blk t).view.emb (ix2 k j)) = _
  refine congrArg (V m c main_v0) (funext fun a => Fin.ext ?_)
  obtain ⟨-, -, -, -, e0, e1, -, -⟩ := idx_facts t
  match a with
  | ⟨0, _⟩ => show win0_2.index t (0 : Fin 2) * 1024 + 1 * k.val = k.val; omega
  | ⟨1, _⟩ => show win0_2.index t (1 : Fin 2) * 1024 + 1 * j.val = j.val; omega

/-- Entry (p, q) of point `t`'s output block sits at (8 t + p, q) of the array, whose entry there is the form of
    row `1024 t + 128 p + q`. -/
theorem tiles_at_block (x y : S16384x1024.Idx → EReal) (s : S1024x1024.Idx → EReal) (t : Fin cfg0.N) (p : Fin 8) (q : Fin 128) :
    tiles x y s (((cfg0.win 3).blk t).view.emb (ix2 p q)) = rowForm x y s (blockRow t (tileRow p q)) := by
  unfold tiles
  refine congrArg (rowForm x y s) (Fin.ext ?_)
  obtain ⟨-, -, -, -, -, -, e0, e1⟩ := idx_facts t
  show 128 * (win0_3.index t (0 : Fin 2) * 8 + 1 * p.val) + (win0_3.index t (1 : Fin 2) * 128 + 1 * q.val)
    = 1024 * t.val + (128 * p.val + q.val)
  omega

/-! ## What a point writes back, the cover, the array after the region -/

/-- WHAT POINT `t` WRITES BACK is its block of `tiles` of the arrays as the region finds them. -/
theorem flushed_eq (c : Dev nD) (t : Fin cfg0.N) :
    (dats m 0 c).flushed 3 t
      = ((cfg0.win 3).blk t).view.read (Elt Ideal) (tiles (V m c main_arg0) (V m c main_arg1) (V m c main_v0)) := by
  show (cfg0.win 3).cut (grid0.coords t) ((dats m 0 c).after 3 t) = _
  rw [after0_3]
  unfold out0_3
  rw [View.canon_unit_zero zero_offsets]
  simp only [View.ld_unit_zero (S := S1024x1024) zero_offsets]
  funext y
  obtain ⟨p, q, rfl⟩ : ∃ (p : Fin 8) (q : Fin 128), y = ix2 p q := ⟨y 0, y 1, eq_ix2 y⟩
  show k0_pay1 (iblk m c 0 t) (iblk m c 1 t) (iblk m c 2 t) (ix2 p q)
    = tiles (V m c main_arg0) (V m c main_arg1) (V m c main_v0) (((cfg0.win 3).blk t).view.emb (ix2 p q))
  refine (stored_apply (iblk m c 0 t) (iblk m c 1 t) (iblk m c 2 t) p q).trans ?_
  rw [tiles_at_block]
  unfold rowForm
  refine congrArg₂ form (funext fun k => ?_) (funext fun k => funext fun j => block_s m c t k j)
  beta_reduce
  rw [block_x, block_y]

/-- An index of the array is in point `t`'s block iff each coordinate is in the block's range on its axis. -/
theorem mem_blk (t : Fin cfg0.N) (i : S128x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- Every entry of the array is in the block of the point its row names: row `a` belongs to point `a / 8`. -/
theorem covered (i : S128x128.Idx) :
    ∃ t : Fin cfg0.N, (cfg0.win 3).flush t = true ∧ i ∈ ((cfg0.win 3).blk t).view.set := by
  have hi0 : (i 0).val < 128 := idx2_lt0 i
  have hi1 : (i 1).val < 128 := idx2_lt1 i
  have hN : cfg0.N = 16 := N_0
  have ht : (i 0).val / 8 < cfg0.N := by rw [hN]; omega
  refine ⟨⟨(i 0).val / 8, ht⟩, flush0_3 _, ?_⟩
  rw [mem_blk]
  obtain ⟨-, -, -, -, -, -, e0, e1⟩ := idx_facts ⟨(i 0).val / 8, ht⟩
  have e0' : win0_3.index ⟨(i 0).val / 8, ht⟩ (0 : Fin 2) = (i 0).val / 8 := e0
  intro a
  match a with
  | ⟨0, _⟩ =>
    show win0_3.index ⟨(i 0).val / 8, ht⟩ (0 : Fin 2) * 8 ≤ (i 0).val ∧ (i 0).val < win0_3.index ⟨(i 0).val / 8, ht⟩ (0 : Fin 2) * 8 + 8
    omega
  | ⟨1, _⟩ =>
    show win0_3.index ⟨(i 0).val / 8, ht⟩ (1 : Fin 2) * 128 ≤ (i 1).val ∧ (i 1).val < win0_3.index ⟨(i 0).val / 8, ht⟩ (1 : Fin 2) * 128 + 128
    omega

/-- THE ARRAY after the region: `tiles` of the arrays as the region finds them. -/
theorem region_array (c : Dev nD) :
    (dats m 0 c).arrAt 3 cfg0.N = tiles (V m c main_arg0) (V m c main_arg1) (V m c main_v0) :=
  (dats m 0 c).arrAt_eq_of_cover 3 _ (fun t _ => flushed_eq m c t) covered

/-! ## Around the region -/

/-- The matrix the region reads is the argument matrix: the change of float format before the region is the
    identity on the extended reals. -/
theorem matrix_eq (c : Dev nD) :
    (V m c main_v0 : S1024x1024.Idx → EReal) = (m ((c : Thread nD τ).loc main_arg2) : S1024x1024.Idx → EReal) := by
  show StableHlo.after hostOps0 (fun b => m (c, b)) (Proc.devRef .tc main_v0) = _
  after_results
  rfl

/-- The region's array in terms of the program's arguments. -/
theorem region_array_args (c : Dev nD) :
    (dats m 0 c).arrAt 3 cfg0.N
      = tiles (m ((c : Thread nD τ).loc main_arg0)) (m ((c : Thread nD τ).loc main_arg1)) (m ((c : Thread nD τ).loc main_arg2)) := by
  rw [region_array, V_main_arg0, V_main_arg1, matrix_eq]

/-- THE RESULT: the flattened array, entry `i` the form of row `i`. -/
theorem result_eq (c : Dev nD) :
    Pipeline.afterTail₀ cfgs (dats m) 0 (V0 m) [hostOps1] c main_v2
      = fun i => rowForm (m ((c : Thread nD τ).loc main_arg0)) (m ((c : Thread nD τ).loc main_arg1))
          (m ((c : Thread nD τ).loc main_arg2)) (⟨(i 0).val, (i 0).isLt⟩ : Fin 16384) := by
  unfold Pipeline.afterTail₀
  show StableHlo.after hostOps1 _ (Proc.devRef .tc main_v2) = _
  after_results
  -- the one array the tail reads is the region's output, as the region left it
  have hA : Pipeline.withArrays (cfgs 0).spec c (V0 m c) (fun w => (dats m 0 c).arrAt w (cfgs 0).N) (Proc.devRef .tc main_v1)
      = tiles (m ((c : Thread nD τ).loc main_arg0)) (m ((c : Thread nD τ).loc main_arg1)) (m ((c : Thread nD τ).loc main_arg2)) :=
    (Pipeline.withArrays_arr spec0 launch0.win.arr_inj c _ _ 3).trans (region_array_args m c)
  rw [hA]
  show shapeCast S16384 (tiles (m ((c : Thread nD τ).loc main_arg0)) (m ((c : Thread nD τ).loc main_arg1))
      (m ((c : Thread nD τ).loc main_arg2))) shapeCasts_S128x128_S16384
    = fun i : S16384.Idx => rowForm (m ((c : Thread nD τ).loc main_arg0)) (m ((c : Thread nD τ).loc main_arg1))
        (m ((c : Thread nD τ).loc main_arg2)) (⟨(i 0).val, (i 0).isLt⟩ : Fin 16384)
  funext i
  have hi : (i 0).val < 16384 := (i 0).isLt
  -- row-major: entry `i` of the flat result is entry (i / 128, i % 128) of the array
  refine (shapeCast_apply _ _ i (ix2 (⟨(i 0).val / 128, by omega⟩ : Fin 128) (⟨(i 0).val % 128, by omega⟩ : Fin 128)) ?_).trans ?_
  · rw [Shape.rowMajor_val_two, Shape.rowMajor_val_one]
    show (i 0).val / 128 * 128 + (i 0).val % 128 = (i 0).val
    omega
  · unfold tiles
    refine congrArg (rowForm _ _ _) (Fin.ext ?_)
    show 128 * ((i 0).val / 128) + (i 0).val % 128 = (i 0).val
    omega

/-! ## The kernel program's run -/

/-- Every weakly fair execution of the kernel program terminates with its result at the row forms of its
    arguments, entry `i` the form of row `i`, and the arguments unchanged. -/
theorem run : θ_run defs (onTc (τ := τ) (main (F := Ideal))) ⟨m, fun _ => 0, ρ⟩ (fun r => ∀ c : Dev nD,
      r.2.mem ((c.tc : Thread nD τ).loc main_v2)
        = (fun i => rowForm (m ((c.tc : Thread nD τ).loc main_arg0)) (m ((c.tc : Thread nD τ).loc main_arg1))
            (m ((c.tc : Thread nD τ).loc main_arg2)) (⟨(i 0).val, (i 0).isLt⟩ : Fin 16384))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.ArrayValue

end
-- ==== Proof.lean ====
/-
  The kernel and its reference compute the same squared Mahalanobis distances, row by row.

  Both programs take `x`, `x_fit` (16384 rows of 1024 entries) and a 1024 × 1024 matrix `s`, and return for
  every row `r` the value `δ · s · δᵀ` of the row's difference `δ = x r − x_fit r`:
  `∑ j, (∑ k, δ k * s k j) * δ j` (Proof/Mahalanobis.lean).

  * The reference does it on whole arrays: subtract, one product with the matrix, an entrywise product with the
    difference, a sum along each row from zero (Proof/RefValue.lean).
  * The kernel does it in sixteen blocks of 1024 rows.  Each block's 1024 row sums are laid out as an 8 × 128
    tile (Proof/BodyValue.lean); the sixteen tiles fill a 128 × 128 array, whose row-major flattening is the result
    (Proof/ArrayValue.lean).  Its changes of float format around the product are the identity on the extended reals.

  The two sums run in the same order, so the values are one expression over the extended reals and the equality
  uses no law that could fail at an infinity: the finiteness of the inputs is never used.  The three frames are the
  programs' runs with the result dropped, and the idealization rewrote nothing, so there is nothing to preserve.
-/
import proofs.«173217_j34187939676803_2_alg».proof.Defs
import proofs.«173217_j34187939676803_2_alg».proof.Proof.Gen.Kernel
import proofs.«173217_j34187939676803_2_alg».proof.Proof.Gen.Kernel.Skeleton
import proofs.«173217_j34187939676803_2_alg».proof.Proof.Gen.Kernel.Launch
import proofs.«173217_j34187939676803_2_alg».proof.Proof.Gen.Kernel.Points
import proofs.«173217_j34187939676803_2_alg».proof.Proof.Gen.Kernel.Frame
import proofs.«173217_j34187939676803_2_alg».proof.Proof.Gen.KernelIdeal
import proofs.«173217_j34187939676803_2_alg».proof.Proof.Gen.KernelIdeal.Skeleton
import proofs.«173217_j34187939676803_2_alg».proof.Proof.Gen.KernelIdeal.Launch
import proofs.«173217_j34187939676803_2_alg».proof.Proof.Gen.KernelIdeal.Points
import proofs.«173217_j34187939676803_2_alg».proof.Proof.Gen.KernelIdeal.Frame
import proofs.«173217_j34187939676803_2_alg».proof.Proof.Gen.ReferenceIdeal
import proofs.«173217_j34187939676803_2_alg».proof.Proof.Gen.ReferenceIdeal.Run
import proofs.«173217_j34187939676803_2_alg».proof.Proof.Gen.ReferenceIdeal.Read
import proofs.«173217_j34187939676803_2_alg».proof.Proof.Gen.Pre_finite_inputs
import proofs.«173217_j34187939676803_2_alg».proof.Proof.Mahalanobis
import proofs.«173217_j34187939676803_2_alg».proof.Proof.RefValue
import proofs.«173217_j34187939676803_2_alg».proof.Proof.BodyValue
import proofs.«173217_j34187939676803_2_alg».proof.Proof.ArrayValue
import Idealize.ShloMosaic.Adequacy
import Idealize.ShloMosaic.Init

noncomputable section

namespace Cert.Proof

open Idealize.ShloMosaic Idealize.SL.Sem

/-- The kernel program, at the word level, runs and leaves its arguments as they were. -/
theorem frame_kernel : Cert.frame_Kernel := fun m ρ _ => Cert.Kernel.Gen.frame m ρ

/-- So does the kernel program read over the extended reals. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments the kernel's result and the reference's are the same array:
    entry `i` of either is the form of row `i`. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
